-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S4096x11008 : Shape := ⟨2, ![4096, 11008]⟩
abbrev S8192x4096 : Shape := ⟨2, ![8192, 4096]⟩
abbrev S1x11008 : Shape := ⟨2, ![1, 11008]⟩
abbrev S8192x11008 : Shape := ⟨2, ![8192, 11008]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩
abbrev S4x2048x11008 : Shape := ⟨3, ![4, 2048, 11008]⟩

abbrev nBuf : Space → Nat
  | .hbm => 14
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S11008x4096, .bf16⟩
  | .hbm, ⟨8, _⟩ => ⟨S4096x11008, .bf16⟩
  | .hbm, ⟨9, _⟩ => ⟨S8192x4096, .f32⟩
  | .hbm, ⟨10, _⟩ => ⟨S8192x4096, .bf16⟩
  | .hbm, ⟨11, _⟩ => ⟨S1x11008, .f32⟩
  | .hbm, ⟨12, _⟩ => ⟨S8192x11008, .f32⟩
  | .hbm, ⟨13, _⟩ => ⟨S4x2048x11008, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S11008x1_S11008x4096_0_1 : S11008x1.BroadcastsInDim S11008x4096 (![0, 1] : Fin 2 → Fin S11008x4096.rank)
  bitsLt_bf16_f32 : FTy.bits .bf16 < FTy.bits .f32
  transposes_S11008x4096_S4096x11008_1_0 : S11008x4096.Transposes [1, 0] S4096x11008
  shapeCasts_S4x2048x4096_S8192x4096 : S4x2048x4096.ShapeCasts S8192x4096
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x11008_S4x2048x11008 : S8192x11008.ShapeCasts S4x2048x11008
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x1024.size a < S4096x11008.size a
  hwx0_1 : ∀ i : grid0.Coords, EltTy.bits .bf16 = 32 ∨ (Rect.unit (s := S4096x11008) (fun a => cc0_transform_1 i a * S4096x1024.size a) (fun a => (Pipeline.Clip.of (cc0_transform_1 i a) (S4096x1024.size a) (S4096x11008.size a)).extent (S4096x1024.size a)) fun a => Pipeline.Clip.inb (Pipeline.Clip.ok_of (hstart0_1 i a))).WholeWords (EltTy.packing .bf16)
  hwxs0_1 : ∀ i : grid0.Coords, EltTy.bits .bf16 = 32 ∨ (Rect.unit (s := S4096x1024) (fun _ => 0) (fun a => (Pipeline.Clip.of (cc0_transform_1 i a) (S4096x1024.size a) (S4096x11008.size a)).extent (S4096x1024.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1024.size a < S1x11008.size a
  hwx0_2 : ∀ i : grid0.Coords, EltTy.bits .f32 = 32 ∨ (Rect.unit (s := S1x11008) (fun a => cc0_transform_2 i a * S1x1024.size a) (fun a => (Pipeline.Clip.of (cc0_transform_2 i a) (S1x1024.size a) (S1x11008.size a)).extent (S1x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x1024) (fun _ => 0) (fun a => (Pipeline.Clip.of (cc0_transform_2 i a) (S1x1024.size a) (S1x11008.size a)).extent (S1x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x1024.size a < S8192x11008.size a
  hwx0_3 : ∀ i : grid0.Coords, EltTy.bits .f32 = 32 ∨ (Rect.unit (s := S8192x11008) (fun a => cc0_transform_3 i a * S512x1024.size a) (fun a => (Pipeline.Clip.of (cc0_transform_3 i a) (S512x1024.size a) (S8192x11008.size a)).extent (S512x1024.size a)) fun a => Pipeline.Clip.inb (Pipeline.Clip.ok_of (hstart0_3 i a))).WholeWords (EltTy.packing .f32)
  hwxs0_3 : ∀ i : grid0.Coords, EltTy.bits .f32 = 32 ∨ (Rect.unit (s := S512x1024) (fun _ => 0) (fun a => (Pipeline.Clip.of (cc0_transform_3 i a) (S512x1024.size a) (S8192x11008.size a)).extent (S512x1024.size a)) fun a => (Nat.zero_add _).trans_le (Pipeline.Clip.extent_le (Pipeline.Clip.ok_of (hstart0_3 i a)))).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v6) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v4) S4096x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v7) S1x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v8) S512x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S4x2048x11008 : Shape := ⟨3, ![4, 2048, 11008]⟩
abbrev S1x1x11008 : Shape := ⟨3, ![1, 1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S4x2048x11008, .f32⟩
  | .hbm, ⟨8, _⟩ => ⟨S1x1x11008, .f32⟩
  | .hbm, ⟨9, _⟩ => ⟨S4x2048x11008, .f32⟩
  | .hbm, ⟨10, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.WordBody.lean ====
/-
  One grid point of the kernel as compiled, as a triple: the body reads its three input tiles whole — 512 rows of the
  activations, 1024 columns of the dequantized transposed weight, the matching 1024 entries of the bias row —, and stores
  into the output tile the matrix unit's product of the first two plus the bias row, broadcast down the rows. Stated for
  any contents of the buffers, so that it applies at an edge tile whose columns past the array's end hold values nothing names.
-/
import proofs.«122555_j70385924047666_2_alg».proof.Proof.Gen.Kernel.Frame
import proofs.«122555_j70385924047666_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four whole-buffer accesses of the body -/

abbrev rX : Rect S512x4096 := Rect.unit (s := S512x4096) ![0, 0] S512x4096.size inb_S512x4096_S512x4096_0_0
abbrev rW : Rect S4096x1024 := Rect.unit (s := S4096x1024) ![0, 0] S4096x1024.size inb_S4096x1024_S4096x1024_0_0
abbrev rB : Rect S1x1024 := Rect.unit (s := S1x1024) ![0, 0] S1x1024.size inb_S1x1024_S1x1024_0_0
abbrev rO : Rect S512x1024 := Rect.unit (s := S512x1024) ![0, 0] S512x1024.size inb_S512x1024_S512x1024_0_0

/-- What one grid point leaves in the output tile's buffer, from what the three input buffers hold: the one
    store of the body, the product of the row tile with the column tile plus the bias row, over the whole tile. -/
def tileOut (x : Vec F S512x4096 .bf16) (w : Vec F S4096x1024 .bf16) (b : Vec F S1x1024 .f32) : Vec F S512x1024 .f32 :=
  View.canon [⟨rO, k0_pay1 (View.ld x rX) (View.ld w rW) (View.ld b rB)⟩]

/-- The one store writes every element of the tile. -/
theorem tileOut_cover (p0 : Vec F S512x1024 .f32) (y : S512x1024.Idx) :
    ∃ pc ∈ ([⟨rO, p0⟩] : List (View.Piece (Elt F) S512x1024 .f32)), y ∈ pc.1.set :=
  View.cover_of_tiled [⟨rO, p0⟩] S512x1024.size (by rfl) y

set_option maxHeartbeats 1000000 in
/-- The body on whole buffers: the three inputs, read whole, are left as found; the output tile's buffer, whatever it
    held, ends at `tileOut` of what the inputs hold. -/
theorem sound_kernel (c : Dev nD) (E : Set ℕ) (i : grid0.Coords)
    (arg2 : Memref sig .tc .vmem S512x4096 .bf16) (harg2 : arg2.IsWhole)
    (arg3 : Memref sig .tc .vmem S4096x1024 .bf16) (harg3 : arg3.IsWhole)
    (arg4 : Memref sig .tc .vmem S1x1024 .f32) (harg4 : arg4.IsWhole)
    (arg5 : Memref sig .tc .vmem S512x1024 .f32) (harg5 : arg5.IsWhole)
    (x0 : Vec F S512x4096 .bf16) (x1 : Vec F S4096x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut x0 x1 x2)) -∗ K ⟨⟩))
      ⊢ wp frame (wpE (defs₀ (F := F)) Variants.none c none) E (cc0__dense_mlp_kernel i arg2 harg2 arg3 harg3 arg4 harg4 arg5 harg5) K := by
  simp only [cc0__dense_mlp_kernel_eq_skeleton]; unfold cc0__dense_mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

end Cert.Kernel.Hand

end
-- ==== Proof.WordFrame.lean ====
/-
  The frame of the kernel as compiled: it runs to the end, faults nowhere and leaves its four argument arrays as launched.
  The grid has 11 × 16 points; point t is handed 512 whole rows of the flattened activations, 1024 columns of the
  dequantized transposed weight and the same 1024 entries of the bias row, and stores one output tile. The eleventh
  column tile overhangs the 11008 columns by 256, so its buffers hold, past the array's end, values nothing names; the
  body only reads the input buffers, so each is found at its block on the part its transfers move, fetched at the point
  or kept from an earlier one. Of the output tile nothing needs to be said here: whatever the matrix unit computes from
  an edge tile, the write-back stays inside the result array, which is no argument.
-/
import proofs.«122555_j70385924047666_2_alg».proof.Proof.WordBody
import proofs.«122555_j70385924047666_2_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window whose contents are left unnamed: the output tile's. -/
def unnamedWindows : Fin 4 → Bool := fun | 0 => false | 1 => false | 2 => false | 3 => true | ⟨_ + 4, h⟩ => absurd h (Nat.not_lt.2 (Nat.le_add_left _ _))

/-- After the body at point `t`: the activation tile's buffer holds its block; the weight and bias tiles' buffers hold
    their blocks on the columns inside the array (past the array's end the values below are placeholders nothing
    reads); the output tile's buffer is not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = (cfg0.win 1).fill (cfg0.grid.coords t) (fun _ => Classical.arbitrary _) (iblk m c 1 t) := by dsimp only [dats]
theorem after0_2 (c : Dev nD) (t : Fin cfg0.N) :
    (dats m 0 c).after 2 t = (cfg0.win 2).fill (cfg0.grid.coords t) (fun _ => Classical.arbitrary _) (iblk m c 2 t) := by dsimp only [dats]

/-! ## What the body finds in the input buffers -/

theorem blockOf_eq (c : Dev nD) (w : Fin cfg0.W) (t : Fin cfg0.N) : (dats m 0 c).blockOf w t = iblk m c w t := by
  unfold Dat.blockOf iblk; rw [A_eq]

/-- The activation tile's buffer holds its block, fetched at this point or not. -/
theorem before0_0 (c : Dev nD) (t : Fin cfg0.N) (d) : (dats m 0 c).before 0 t d = iblk m c 0 t :=
  before0_0_of m (dats m 0 c) (A_eq m c 0) (after0_0 m c) t d

/-- The weight tile's buffer holds its block on the columns inside the array — the index map moves only with the
    column tile, and between fetches the body leaves the buffer as found. -/
theorem before0_1 (c : Dev nD) (t : Fin cfg0.N) (d) :
    (dats m 0 c).before 1 t d = (cfg0.win 1).fill (cfg0.grid.coords t) d (iblk m c 1 t) := by
  rw [(dats m 0 c).before_in_eq_fetched 1 rfl (fun _ => rfl)
    (fun t t' h => by
      funext a
      show Pipeline.Clip.of ((cfg0.win 1).index t a) _ _ = Pipeline.Clip.of ((cfg0.win 1).index t' a) _ _
      rw [h])
    (fun t => by rw [after0_1, Window.cut_fill, blockOf_eq]) t d]
  unfold Dat.fetched; rw [blockOf_eq]

/-- The bias tile's likewise. -/
theorem before0_2 (c : Dev nD) (t : Fin cfg0.N) (d) :
    (dats m 0 c).before 2 t d = (cfg0.win 2).fill (cfg0.grid.coords t) d (iblk m c 2 t) := by
  rw [(dats m 0 c).before_in_eq_fetched 2 rfl (fun _ => rfl)
    (fun t t' h => by
      funext a
      show Pipeline.Clip.of ((cfg0.win 2).index t a) _ _ = Pipeline.Clip.of ((cfg0.win 2).index t' a) _ _
      rw [h])
    (fun t => by rw [after0_2, Window.cut_fill, blockOf_eq]) t d]
  unfold Dat.fetched; rw [blockOf_eq]

/-! ## The body obligation -/

theorem leaves0_1 (c : Dev nD) (t : Fin cfg0.N) (d) :
    (cfg0.win 1).fill (cfg0.grid.coords t) d ((cfg0.win 1).cut (cfg0.grid.coords t) ((dats m 0 c).after 1 t))
      = (cfg0.win 1).fill (cfg0.grid.coords t) d (iblk m c 1 t) := by
  rw [after0_1, Window.cut_fill]

theorem leaves0_2 (c : Dev nD) (t : Fin cfg0.N) (d) :
    (cfg0.win 2).fill (cfg0.grid.coords t) d ((cfg0.win 2).cut (cfg0.grid.coords t) ((dats m 0 c).after 2 t))
      = (cfg0.win 2).fill (cfg0.grid.coords t) d (iblk m c 2 t) := by
  rw [after0_2, Window.cut_fill]

/-- At every point the body, handed the three input buffers at their blocks (the edge ones filled out with anything)
    and the output buffer at anything, returns the inputs as found and the output buffer at some contents. -/
theorem body_obligation (c : Dev nD) :
    BodyObligationLoose (dats m 0 c) (defs₀ (F := F)) Variants.none () Set.univ unnamedWindows := fun t => by
  rw [bigSep_W0, bigSep_W0]
  simp only [unnamedWindows]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]
  · iexists d1; rw [leaves0_1 m c t d1]; iexact H1
  isplitl [H2]
  · iexists d2; rw [leaves0_2 m c t d2]; iexact H2
  · iexists _; iexact H3

/-! ## The run and the frame -/

/-- The one line after the region writes the reshaped result and nothing else. -/
theorem tail_writes : ∀ ops ∈ ([hostOps1] : List (List (HloOp τ sig (Elt F)))), ∀ op ∈ ops,
    ∀ b : Ref sig .tc, Proc.devRef .tc b ∈ op.writes → b ∈ ({main_v9} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  exact Finset.mem_singleton.mpr (Proc.devRef_injective _ hb)

set_option backward.isDefEq.respectTransparency.types false in
/-- Every weakly fair execution of @main terminates, nothing faulting; every buffer that is neither an array of the
    pipeline nor the reshaped result ends at what it held when the region was entered. -/
theorem run_main : θ_run defs (onTc (τ := τ) (main (F := F))) (s₀ m ρ)
    (Pipeline.RDat.FramePostR (cfgs 0) (fun c => (dats m 0 c).toRForget unnamedWindows) {main_v9} (V m)) :=
  Pipeline.RDat.θ_run_frame_around_T cfgs (0 : Fin 1) launch0 defs₀ Variants.none
    (fun c => (dats m 0 c).toRForget unnamedWindows) {main_v9} m ρ main
    (hbody := fun c => (body_obligation m c).toRForget)
    (hshare := fun c => ((dats m 0 c).toRForget unnamedWindows).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c)⟩)
    (run_main m ρ)

end Cert.Kernel.Hand

end
-- ==== Proof.IdealBody.lean ====
/-
  One grid point of the idealized kernel, as a triple: the body reads its three input tiles whole — 512 rows of the
  activations, 1024 columns of the dequantized transposed weight, the matching 1024 entries of the bias row —, and stores
  into the output tile the product of the first two plus the bias row, broadcast down the rows. Stated for any contents
  of the buffers, so that it applies at an edge tile whose columns past the array's end hold values nothing names.
-/
import proofs.«122555_j70385924047666_2_alg».proof.Proof.Gen.KernelIdeal.Frame
import proofs.«122555_j70385924047666_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four whole-buffer accesses of the body -/

abbrev rX : Rect S512x4096 := Rect.unit (s := S512x4096) ![0, 0] S512x4096.size inb_S512x4096_S512x4096_0_0
abbrev rW : Rect S4096x1024 := Rect.unit (s := S4096x1024) ![0, 0] S4096x1024.size inb_S4096x1024_S4096x1024_0_0
abbrev rB : Rect S1x1024 := Rect.unit (s := S1x1024) ![0, 0] S1x1024.size inb_S1x1024_S1x1024_0_0
abbrev rO : Rect S512x1024 := Rect.unit (s := S512x1024) ![0, 0] S512x1024.size inb_S512x1024_S512x1024_0_0

/-- What one grid point leaves in the output tile's buffer, from what the three input buffers hold: the one
    store of the body, the product of the row tile with the column tile plus the bias row, over the whole tile. -/
def tileOut (x : Vec F S512x4096 .bf16) (w : Vec F S4096x1024 .bf16) (b : Vec F S1x1024 .f32) : Vec F S512x1024 .f32 :=
  View.canon [⟨rO, k0_pay1 (View.ld x rX) (View.ld w rW) (View.ld b rB)⟩]

/-- The one store writes every element of the tile. -/
theorem tileOut_cover (p0 : Vec F S512x1024 .f32) (y : S512x1024.Idx) :
    ∃ pc ∈ ([⟨rO, p0⟩] : List (View.Piece (Elt F) S512x1024 .f32)), y ∈ pc.1.set :=
  View.cover_of_tiled [⟨rO, p0⟩] S512x1024.size (by rfl) y

set_option maxHeartbeats 1000000 in
/-- The body on whole buffers: the three inputs, read whole, are left as found; the output tile's buffer, whatever it
    held, ends at `tileOut` of what the inputs hold. -/
theorem sound_kernel (c : Dev nD) (E : Set ℕ) (i : grid0.Coords)
    (arg2 : Memref sig .tc .vmem S512x4096 .bf16) (harg2 : arg2.IsWhole)
    (arg3 : Memref sig .tc .vmem S4096x1024 .bf16) (harg3 : arg3.IsWhole)
    (arg4 : Memref sig .tc .vmem S1x1024 .f32) (harg4 : arg4.IsWhole)
    (arg5 : Memref sig .tc .vmem S512x1024 .f32) (harg5 : arg5.IsWhole)
    (x0 : Vec F S512x4096 .bf16) (x1 : Vec F S4096x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut x0 x1 x2)) -∗ K ⟨⟩))
      ⊢ wp frame (wpE (defs₀ (F := F)) Variants.none c none) E (cc0__dense_mlp_kernel i arg2 harg2 arg3 harg3 arg4 harg4 arg5 harg5) K := by
  simp only [cc0__dense_mlp_kernel_eq_skeleton]; unfold cc0__dense_mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.IdealTile.lean ====
/-
  What one grid point stores, read at an element, over the extended reals: at row p and column q of the output tile, the
  sum over the 4096 shared positions k of the activation tile at (p, k) times the weight tile at (k, q), plus the bias
  tile at (0, q). Element (p, q) depends on column q of the weight tile and entry q of the bias tile only — which is why
  the columns of an edge tile that lie past the array's end cannot disturb the columns inside it.
-/
import proofs.«122555_j70385924047666_2_alg».proof.Proof.IdealBody
import proofs.«122555_j70385924047666_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

theorem zero_offsets : (![0, 0] : Fin 2 → Nat) = fun _ => 0 := funext fun a => by fin_cases a <;> rfl

/-- The stored tile at (p, q): the contraction over k plus the bias entry of column q. -/
theorem tileOut_apply (x : Vec Ideal S512x4096 .bf16) (w : Vec Ideal S4096x1024 .bf16) (b : Vec Ideal S1x1024 .f32)
    (p : Fin 512) (q : Fin 1024) :
    tileOut (F := Ideal) x w b (ix2 p q) = (∑ k : Fin 4096, x (ix2 p k) * w (ix2 k q)) + b (ix2 0 q) := by
  unfold tileOut
  rw [View.canon_unit_zero zero_offsets]
  simp only [View.ld_unit_zero (S := S512x4096) zero_offsets, View.ld_unit_zero (S := S4096x1024) zero_offsets,
    View.ld_unit_zero (S := S1x1024) zero_offsets]
  unfold k0_pay1
  rw [addf_apply, shapeCast_self, shapeCast_self, shapeCast_self,
    broadcastTo_1b_ab_apply (a := 512) (b := 1024) b broadcasts_S1x1024_S512x1024 p q]
  exact congrArg (· + b (ix2 0 q))
    (Cert.Lib.matmul_zero_apply dot_S512x4096_S4096x1024_S512x1024_1_0_0_1_n_n_wf none x w p q)

end Cert.KernelIdeal.Hand

end
-- ==== Proof.IdealData.lean ====
/-
  The idealized kernel across its grid of 11 × 16 points. Point t handles the output tile of rows
  512·(t mod 16) … and columns 1024·(t div 16) …: it is handed 512 whole rows of the flattened activations, 1024 columns
  of the dequantized transposed weight and the same 1024 entries of the bias row. The eleventh column tile overhangs the
  11008 columns by 256: its fetches fill only the first 768 columns of the buffers, the rest holds values nothing names,
  and its write-back writes only the first 768 columns of what the body stored. Because column q of the stored tile
  depends on column q of the weight tile and entry q of the bias tile alone, those 768 columns are the right ones
  whatever the other 256 hold: every point writes back its part of ONE array,
      out (r, o) = Σ_k act (r, k) · wt (k, o) + biasRow (0, o),
  over the arrays as the region finds them.
-/
import proofs.«122555_j70385924047666_2_alg».proof.Proof.IdealTile
import proofs.«122555_j70385924047666_2_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The index maps and the cuts, decided over the grid -/

/-- At every point: the activation tile's row block is the output tile's, the weight and bias tiles' column block is
    the output tile's; rows are never cut; the weight, bias and output tiles are cut alike on the columns, and the part
    kept lies inside the 11008 columns. -/
theorem grid_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_1.xsize (grid0.coords t) (0 : Fin 2) = 4096
    ∧ win0_1.xsize (grid0.coords t) (1 : Fin 2) = win0_3.xsize (grid0.coords t) (1 : Fin 2)
    ∧ win0_2.xsize (grid0.coords t) (0 : Fin 2) = 1
    ∧ win0_2.xsize (grid0.coords t) (1 : Fin 2) = win0_3.xsize (grid0.coords t) (1 : Fin 2)
    ∧ win0_3.xsize (grid0.coords t) (0 : Fin 2) = 512
    ∧ win0_3.index t (0 : Fin 2) < 16
    ∧ win0_3.index t (1 : Fin 2) * 1024 + win0_3.xsize (grid0.coords t) (1 : Fin 2) ≤ 11008
    ∧ win0_3.xsize (grid0.coords t) (1 : Fin 2) = (if win0_3.index t (1 : Fin 2) < 10 then 1024 else 768) :=
  (by decide +kernel : ∀ t : Fin grid0.N, _)

/-- Every output tile is some point's. -/
theorem grid_onto : ∀ (q0 : Fin 16) (q1 : Fin 11), ∃ t : Fin cfg0.N, win0_3.index t = ![q0.val, q1.val] :=
  (by decide +kernel : ∀ (q0 : Fin 16) (q1 : Fin 11), ∃ t : Fin grid0.N, win0_3.index t = ![q0.val, q1.val])

/-! ## The whole result, as one array -/

/-- The flat result over the region's three operand arrays. -/
def flatOut (a0 : Vec Ideal S8192x4096 .bf16) (a1 : Vec Ideal S4096x11008 .bf16) (a2 : Vec Ideal S1x11008 .f32) :
    Vec Ideal S8192x11008 .f32 :=
  fun i => (∑ k : Fin 4096, a0 (ix2 (i 0) k) * a1 (ix2 k (i 1))) + a2 (ix2 0 (i 1))

/-- The same at the arrays as the region finds them on core `c`. -/
def outArr (c : Dev nD) : Vec Ideal S8192x11008 .f32 :=
  flatOut (V m c main_v6) (V m c main_v4) (V m c main_v7)

/-! ## The proof data -/

/-- After the body at point `t`: the activation tile's buffer holds its block; the weight and bias tiles' buffers hold
    their blocks on the columns inside the array; the output tile's buffer holds, on the rows and columns inside the
    array, block `t` of `outArr`. (Past the array's end the values below are placeholders nothing reads.) -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => (0 : EReal)) (iblk m c 1 t)
    | ⟨2, _⟩ => (cfg0.win 2).fill (cfg0.grid.coords t) (fun _ => (0 : EReal)) (iblk m c 2 t)
    | ⟨3, _⟩ => (cfg0.win 3).fill (cfg0.grid.coords t) (fun _ => (0 : EReal))
        (((cfg0.win 3).blk t).view.read (Elt Ideal) (outArr m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = (cfg0.win 1).fill (cfg0.grid.coords t) (fun _ => (0 : EReal)) (iblk m c 1 t) := by dsimp only [dats]
theorem after0_2 (c : Dev nD) (t : Fin cfg0.N) :
    (dats m 0 c).after 2 t = (cfg0.win 2).fill (cfg0.grid.coords t) (fun _ => (0 : EReal)) (iblk m c 2 t) := by dsimp only [dats]
theorem after0_3 (c : Dev nD) (t : Fin cfg0.N) :
    (dats m 0 c).after 3 t = (cfg0.win 3).fill (cfg0.grid.coords t) (fun _ => (0 : EReal))
      (((cfg0.win 3).blk t).view.read (Elt Ideal) (outArr m c)) := by dsimp only [dats]

/-! ## What the body finds in the input buffers -/

theorem blockOf_eq (c : Dev nD) (w : Fin cfg0.W) (t : Fin cfg0.N) : (dats m 0 c).blockOf w t = iblk m c w t := by
  unfold Dat.blockOf iblk; rw [A_eq]

/-- The activation tile's buffer holds its block, fetched at this point or not. -/
theorem before0_0 (c : Dev nD) (t : Fin cfg0.N) (d) : (dats m 0 c).before 0 t d = iblk m c 0 t :=
  before0_0_of m (dats m 0 c) (A_eq m c 0) (after0_0 m c) t d

/-- The weight tile's buffer holds its block on the columns inside the array — the index map moves only with the
    column tile, and between fetches the body leaves the buffer as found. -/
theorem before0_1 (c : Dev nD) (t : Fin cfg0.N) (d) :
    (dats m 0 c).before 1 t d = (cfg0.win 1).fill (cfg0.grid.coords t) d (iblk m c 1 t) := by
  rw [(dats m 0 c).before_in_eq_fetched 1 rfl (fun _ => rfl)
    (fun t t' h => by
      funext a
      show Pipeline.Clip.of ((cfg0.win 1).index t a) _ _ = Pipeline.Clip.of ((cfg0.win 1).index t' a) _ _
      rw [h])
    (fun t => by rw [after0_1, Window.cut_fill, blockOf_eq]) t d]
  unfold Dat.fetched; rw [blockOf_eq]

/-- The bias tile's likewise. -/
theorem before0_2 (c : Dev nD) (t : Fin cfg0.N) (d) :
    (dats m 0 c).before 2 t d = (cfg0.win 2).fill (cfg0.grid.coords t) d (iblk m c 2 t) := by
  rw [(dats m 0 c).before_in_eq_fetched 2 rfl (fun _ => rfl)
    (fun t t' h => by
      funext a
      show Pipeline.Clip.of ((cfg0.win 2).index t a) _ _ = Pipeline.Clip.of ((cfg0.win 2).index t' a) _ _
      rw [h])
    (fun t => by rw [after0_2, Window.cut_fill, blockOf_eq]) t d]
  unfold Dat.fetched; rw [blockOf_eq]

/-! ## One point's stored tile, on the part inside the array, is its block of `outArr` -/

/-- The weight tile's buffer at (k, q), for a column q the transfers move: the array at column 1024·(column tile) + q. -/
theorem wtile_apply (c : Dev nD) (t : Fin cfg0.N) (d) (k : Fin 4096) (q : Fin 1024)
    (hq : q.val < win0_3.xsize (grid0.coords t) (1 : Fin 2)) (o : Fin 11008)
    (ho : o.val = win0_3.index t (1 : Fin 2) * 1024 + q.val) :
    (cfg0.win 1).fill (cfg0.grid.coords t) d (iblk m c 1 t) (ix2 k q) = V m c main_v4 (ix2 k o) := by
  obtain ⟨-, -, e10, e11, -, -, x10, x11, -, -, -, -, -, -⟩ := grid_facts t
  have hm : (cfg0.win 1).moved (cfg0.grid.coords t) (ix2 k q) = true :=
    ((cfg0.win 1).moved_iff _ _).mpr fun a => by
      match a with
      | ⟨0, _⟩ => show k.val < win0_1.xsize (grid0.coords t) (0 : Fin 2); rw [x10]; exact k.isLt
      | ⟨1, _⟩ => show q.val < win0_1.xsize (grid0.coords t) (1 : Fin 2); rw [x11]; exact hq
  unfold Window.fill
  rw [dif_pos hm]
  show V m c main_v4 (((cfg0.win 1).blk t).view.emb _) = V m c main_v4 (ix2 k o)
  refine congrArg _ (funext fun a => Fin.ext ?_)
  match a with
  | ⟨0, _⟩ => show win0_1.index t (0 : Fin 2) * 4096 + 1 * k.val = k.val; rw [e10]; omega
  | ⟨1, _⟩ => show win0_1.index t (1 : Fin 2) * 1024 + 1 * q.val = o.val; rw [e11, ho]; omega

/-- The bias tile's buffer at (0, q), for a column q the transfers move. -/
theorem btile_apply (c : Dev nD) (t : Fin cfg0.N) (d) (q : Fin 1024)
    (hq : q.val < win0_3.xsize (grid0.coords t) (1 : Fin 2)) (o : Fin 11008)
    (ho : o.val = win0_3.index t (1 : Fin 2) * 1024 + q.val) :
    (cfg0.win 2).fill (cfg0.grid.coords t) d (iblk m c 2 t) (ix2 0 q) = V m c main_v7 (ix2 0 o) := by
  obtain ⟨-, -, -, -, e20, e21, -, -, x20, x21, -, -, -, -⟩ := grid_facts t
  have hm : (cfg0.win 2).moved (cfg0.grid.coords t) (ix2 0 q) = true :=
    ((cfg0.win 2).moved_iff _ _).mpr fun a => by
      match a with
      | ⟨0, _⟩ => show 0 < win0_2.xsize (grid0.coords t) (0 : Fin 2); rw [x20]; exact Nat.one_pos
      | ⟨1, _⟩ => show q.val < win0_2.xsize (grid0.coords t) (1 : Fin 2); rw [x21]; exact hq
  unfold Window.fill
  rw [dif_pos hm]
  show V m c main_v7 (((cfg0.win 2).blk t).view.emb _) = V m c main_v7 (ix2 0 o)
  refine congrArg _ (funext fun a => Fin.ext ?_)
  match a with
  | ⟨0, _⟩ => show win0_2.index t (0 : Fin 2) * 1 + 1 * 0 = 0; rw [e20]
  | ⟨1, _⟩ => show win0_2.index t (1 : Fin 2) * 1024 + 1 * q.val = o.val; rw [e21, ho]; omega

/-- The activation tile's buffer at (p, k): the array at row 512·(row tile) + p. -/
theorem xtile_apply (c : Dev nD) (t : Fin cfg0.N) (p : Fin 512) (k : Fin 4096) (r : Fin 8192)
    (hr : r.val = win0_3.index t (0 : Fin 2) * 512 + p.val) :
    iblk m c 0 t (ix2 p k) = V m c main_v6 (ix2 r k) := by
  obtain ⟨e00, e01, -, -, -, -, -, -, -, -, -, -, -, -⟩ := grid_facts t
  show V m c main_v6 (((cfg0.win 0).blk t).view.emb (ix2 p k)) = V m c main_v6 (ix2 r k)
  refine congrArg _ (funext fun a => Fin.ext ?_)
  match a with
  | ⟨0, _⟩ => show win0_0.index t (0 : Fin 2) * 512 + 1 * p.val = r.val; rw [e00, hr]; omega
  | ⟨1, _⟩ => show win0_0.index t (1 : Fin 2) * 4096 + 1 * k.val = k.val; rw [e01]; omega

/-- The flat result at (r, o). -/
theorem flatOut_apply (a0 : Vec Ideal S8192x4096 .bf16) (a1 : Vec Ideal S4096x11008 .bf16) (a2 : Vec Ideal S1x11008 .f32)
    (r : Fin 8192) (o : Fin 11008) :
    flatOut a0 a1 a2 (ix2 r o) = (∑ k : Fin 4096, a0 (ix2 r k) * a1 (ix2 k o)) + a2 (ix2 0 o) := rfl

/-- Block `t` of an array of the result's shape, at an element of the part the write-back moves. -/
theorem read_otile (G : Vec Ideal S8192x11008 .f32) (t : Fin cfg0.N) (y : ((cfg0.win 3).xblock (cfg0.grid.coords t)).Idx)
    (r : Fin 8192) (o : Fin 11008) (hr : r.val = win0_3.index t (0 : Fin 2) * 512 + (y 0).val)
    (ho : o.val = win0_3.index t (1 : Fin 2) * 1024 + (y 1).val) :
    ((cfg0.win 3).blk t).view.read (Elt Ideal) G y = G (ix2 r o) := by
  show G (((cfg0.win 3).blk t).view.emb y) = G (ix2 r o)
  refine congrArg G (funext fun a => Fin.ext ?_)
  match a with
  | ⟨0, _⟩ => show win0_3.index t (0 : Fin 2) * 512 + 1 * (y 0).val = r.val; omega
  | ⟨1, _⟩ => show win0_3.index t (1 : Fin 2) * 1024 + 1 * (y 1).val = o.val; omega

/-- WHAT POINT `t` STORES, cut to the part its write-back moves, is block `t` of `outArr` — whatever the weight and
    bias buffers hold past the array's end. -/
theorem tile_cut (c : Dev nD) (t : Fin cfg0.N) (d1 d2) :
    (cfg0.win 3).cut (cfg0.grid.coords t)
        (tileOut (F := Ideal) (iblk m c 0 t) ((cfg0.win 1).fill (cfg0.grid.coords t) d1 (iblk m c 1 t))
          ((cfg0.win 2).fill (cfg0.grid.coords t) d2 (iblk m c 2 t)))
      = ((cfg0.win 3).blk t).view.read (Elt Ideal) (outArr m c) := by
  obtain ⟨-, -, -, -, -, -, -, -, -, -, x30, i30, i31, -⟩ := grid_facts t
  funext y
  have hp : (y 0).val < 512 := by have := (y 0).isLt; rw [← x30]; exact this
  have hq' : (y 1).val < win0_3.xsize (grid0.coords t) (1 : Fin 2) := (y 1).isLt
  have hq : (y 1).val < 1024 := lt_of_lt_of_le hq' (win0_3.xsize_le _ _)
  have hr : win0_3.index t (0 : Fin 2) * 512 + (y 0).val < 8192 := by omega
  have ho : win0_3.index t (1 : Fin 2) * 1024 + (y 1).val < 11008 := by omega
  have hy : (cfg0.win 3).xinj (cfg0.grid.coords t) y = ix2 (⟨(y 0).val, hp⟩ : Fin 512) (⟨(y 1).val, hq⟩ : Fin 1024) :=
    funext fun a => Fin.ext (by match a with | ⟨0, _⟩ => rfl | ⟨1, _⟩ => rfl)
  rw [read_otile (outArr m c) t y ⟨_, hr⟩ ⟨_, ho⟩ rfl rfl]
  show tileOut (F := Ideal) _ _ _ ((cfg0.win 3).xinj (cfg0.grid.coords t) y) = _
  rw [hy, tileOut_apply]
  unfold outArr
  rw [flatOut_apply, btile_apply m c t d2 ⟨(y 1).val, hq⟩ hq' ⟨_, ho⟩ rfl]
  refine congrArg (· + _) (Finset.sum_congr rfl fun k _ => ?_)
  rw [xtile_apply m c t ⟨(y 0).val, hp⟩ k ⟨_, hr⟩ rfl, wtile_apply m c t d1 k ⟨(y 1).val, hq⟩ hq' ⟨_, ho⟩ rfl]

/-! ## The body obligation -/

/-- The weight tile's buffer is left as found: its block on the part the transfers move. -/
theorem leaves0_1 (c : Dev nD) (t : Fin cfg0.N) (d) :
    (cfg0.win 1).fill (cfg0.grid.coords t) d ((cfg0.win 1).cut (cfg0.grid.coords t) ((dats m 0 c).after 1 t))
      = (cfg0.win 1).fill (cfg0.grid.coords t) d (iblk m c 1 t) := by
  rw [after0_1, Window.cut_fill]

/-- The bias tile's likewise. -/
theorem leaves0_2 (c : Dev nD) (t : Fin cfg0.N) (d) :
    (cfg0.win 2).fill (cfg0.grid.coords t) d ((cfg0.win 2).cut (cfg0.grid.coords t) ((dats m 0 c).after 2 t))
      = (cfg0.win 2).fill (cfg0.grid.coords t) d (iblk m c 2 t) := by
  rw [after0_2, Window.cut_fill]

/-- The output tile's buffer holds the stored tile, which on the part the write-back moves is block `t` of `outArr`. -/
theorem leaves0_3 (c : Dev nD) (t : Fin cfg0.N) (d1 d2) :
    (cfg0.win 3).fill (cfg0.grid.coords t)
        (tileOut (F := Ideal) (iblk m c 0 t) ((cfg0.win 1).fill (cfg0.grid.coords t) d1 (iblk m c 1 t))
          ((cfg0.win 2).fill (cfg0.grid.coords t) d2 (iblk m c 2 t)))
        ((cfg0.win 3).cut (cfg0.grid.coords t) ((dats m 0 c).after 3 t))
      = tileOut (F := Ideal) (iblk m c 0 t) ((cfg0.win 1).fill (cfg0.grid.coords t) d1 (iblk m c 1 t))
          ((cfg0.win 2).fill (cfg0.grid.coords t) d2 (iblk m c 2 t)) := by
  rw [after0_3, Window.cut_fill, ← tile_cut m c t d1 d2]
  exact Window.fill_cut _ _ _

/-- At every point the body, handed the three input buffers at their blocks (the edge ones filled out with anything)
    and the output buffer at anything, returns the inputs as found and the output at the stored tile. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel (F := Ideal) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]
  · iexists d1; rw [leaves0_1 m c t d1]; iexact H1
  isplitl [H2]
  · iexists d2; rw [leaves0_2 m c t d2]; iexact H2
  · iexists (tileOut (F := Ideal) (iblk m c 0 t) ((cfg0.win 1).fill (cfg0.grid.coords t) d1 (iblk m c 1 t))
      ((cfg0.win 2).fill (cfg0.grid.coords t) d2 (iblk m c 2 t)))
    rw [leaves0_3 m c t d1 d2]; iexact H3

end Cert.KernelIdeal.Hand

end
-- ==== Proof.IdealRun.lean ====
/-
  The idealized kernel's run, read: after the last write-back the flat result array holds
      out (r, o) = Σ_k act (r, k) · wt (k, o) + biasRow (0, o)
  at every (r, o) — the 11 × 16 tiles, the last column tile cut to its 768 columns inside the array, cover the 8192 × 11008
  indices —, and the one line after the region reshapes it to [4, 2048, 11008]. The four argument arrays end as launched.
-/
import proofs.«122555_j70385924047666_2_alg».proof.Proof.IdealData
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The frame run -/

set_option backward.isDefEq.respectTransparency.types false in
/-- Every weakly fair execution of @main terminates, nothing faulting, every array of the pipeline at what the proof
    data computes and every other buffer as the line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The tiles cover the result -/

/-- An index of the flat result lies in point `t`'s tile iff each coordinate lies in the tile's range cut at the array's end. -/
theorem mem_otile (t : Fin cfg0.N) (i : S8192x11008.Idx) :
    i ∈ ((cfg0.win 3).blk t).view.set ↔ ∀ a : Fin 2, win0_3.index t a * S512x1024.size a ≤ (i a).val
      ∧ (i a).val < win0_3.index t a * S512x1024.size a + win0_3.xsize (grid0.coords t) a := by
  show i ∈ ((View.whole main_v8).slice (win0_3.rect t)).set ↔ _
  rw [View.set_slice_whole, Rect.mem_set_unit]
  exact Iff.rfl

/-- Every index lies in the tile of row block r / 512 and column block o / 1024 — for the last column block, among its
    768 columns inside the array. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ := grid_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  obtain ⟨-, -, -, -, -, -, -, -, -, -, x30, -, -, x31⟩ := grid_facts t
  refine ⟨t, flush0_3 t, ?_⟩
  rw [mem_otile]
  intro a
  match a with
  | ⟨0, _⟩ =>
    show win0_3.index t (0 : Fin 2) * 512 ≤ (i 0).val ∧ (i 0).val < win0_3.index t (0 : Fin 2) * 512 + win0_3.xsize (grid0.coords t) (0 : Fin 2)
    rw [x30]; omega
  | ⟨1, _⟩ =>
    show win0_3.index t (1 : Fin 2) * 1024 ≤ (i 1).val ∧ (i 1).val < win0_3.index t (1 : Fin 2) * 1024 + win0_3.xsize (grid0.coords t) (1 : Fin 2)
    rw [x31]; split <;> omega

/-- THE FLAT RESULT after the run. -/
theorem final_out (c : Dev nD) : (dats m 0 c).arrAt 3 cfg0.N = outArr m c :=
  (dats m 0 c).arrAt_eq_of_cover 3 (outArr m c) (fun t _ => by
    show (cfg0.win 3).cut (cfg0.grid.coords t) ((dats m 0 c).after 3 t) = _
    rw [after0_3, Window.cut_fill]) covered

/-! ## The line after the region -/

/-- The program's result: the flat result reshaped. -/
theorem result_eq (c : Dev nD) :
    Pipeline.afterTail₀ cfgs (dats m) 0 (V0 m) [hostOps1] c main_v9
      = shapeCast S4x2048x11008 (outArr m c) shapeCasts_S8192x11008_S4x2048x11008 := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.tc.devRef main_v8)
      = outArr m c from (Pipeline.withArrays_arr spec0 launch0.win.arr_inj c _ _ 3).trans (final_out m c)]
  rfl

/-! ## The operand arrays as the region finds them -/

/-- The flattened activations: the first argument reshaped to [8192, 4096] (the change of format is the identity here). -/
theorem V_act (c : Dev nD) :
    (V m c main_v6 : S8192x4096.Idx → EReal)
      = truncf (F := Ideal) .bf16 (shapeCast S8192x4096 (m ((c : Thread nD τ).loc main_arg0) : S4x2048x4096.Idx → EReal)
          shapeCasts_S4x2048x4096_S8192x4096) bitsLt_bf16_f32 := by
  show StableHlo.after hostOps0 (fun b => m (c, b)) (Proc.devRef .tc main_v6) = _
  after_results
  all_goals rfl

/-- The dequantized transposed weight: the integer weights, read exactly, times each row's scale, transposed. -/
theorem V_wt (c : Dev nD) :
    (V m c main_v4 : S4096x11008.Idx → EReal)
      = transpose S4096x11008 [1, 0]
          (truncf (F := Ideal) .bf16
            (mulf (sitofp (F := Ideal) .f32 (m ((c : Thread nD τ).loc main_arg1)))
              (broadcastInDim S11008x4096 ![0, 1] bcast_S11008x1_S11008x4096_0_1 (m ((c : Thread nD τ).loc main_arg2) : S11008x1.Idx → EReal)))
            bitsLt_bf16_f32)
          transposes_S11008x4096_S4096x11008_1_0 := by
  show StableHlo.after hostOps0 (fun b => m (c, b)) (Proc.devRef .tc main_v4) = _
  after_results
  all_goals rfl

/-- The bias as one row. -/
theorem V_bias (c : Dev nD) :
    (V m c main_v7 : S1x11008.Idx → EReal)
      = shapeCast S1x11008 (m ((c : Thread nD τ).loc main_arg3) : S11008.Idx → EReal) shapeCasts_S11008_S1x11008 := by
  show StableHlo.after hostOps0 (fun b => m (c, b)) (Proc.devRef .tc main_v7) = _
  after_results
  all_goals rfl

end Cert.KernelIdeal.Hand

end
-- ==== Proof.Spec.lean ====
/-
  The dequantized linear layer, as one function of the four arguments over the extended reals. Independent of any program.

  With activations x [4, 2048, 4096], integer-coded weights q [11008, 4096], one scale per output row s [11008, 1] and a
  bias b [11008], the result at (a, r, o) is
      Σ_k x (a, r, k) · (q (o, k) · s (o, 0)) + b (o),
  the integer read exactly. Both programs compute this with the same grouping — the weight is scaled before the
  contraction, the bias added after it —, so no law of the extended reals beyond the definitions is needed to join them.
-/
import Idealize.ShloMosaic.Lib.ValueIdx
import Idealize.ShloMosaic.PureOps.Ideal

noncomputable section

namespace Cert.Spec

open Idealize.ShloMosaic Idealize.ShloMosaic.ValueIdx

/-- The layer's result at an index. -/
def linear (x : FVec Ideal ⟨3, ![4, 2048, 4096]⟩ .f32) (q : IVec ⟨2, ![11008, 4096]⟩ 32)
    (s : FVec Ideal ⟨2, ![11008, 1]⟩ .f32) (b : FVec Ideal ⟨1, ![11008]⟩ .f32) : FVec Ideal ⟨3, ![4, 2048, 11008]⟩ .f32 :=
  fun i => (∑ k : Fin 4096, x (ix3 (n0 := 4) (n1 := 2048) (n2 := 4096) (i 0) (i 1) k)
      * (FloatOps.sitofp (F := Ideal) .f32 (q (ix2 (n0 := 11008) (n1 := 4096) (i 2) k))
          * s (ix2 (n0 := 11008) (n1 := 1) (i 2) 0))) + b (ix1 (n := 11008) (i 2))

/-- The same with the index written by its coordinates. -/
theorem linear_apply (x : FVec Ideal ⟨3, ![4, 2048, 4096]⟩ .f32) (q : IVec ⟨2, ![11008, 4096]⟩ 32)
    (s : FVec Ideal ⟨2, ![11008, 1]⟩ .f32) (b : FVec Ideal ⟨1, ![11008]⟩ .f32) (a : Fin 4) (r : Fin 2048) (o : Fin 11008) :
    linear x q s b (ix3 a r o)
      = (∑ k : Fin 4096, x (ix3 a r k) * (FloatOps.sitofp (F := Ideal) .f32 (q (ix2 o k)) * s (ix2 o (0 : Fin 1)))) + b (ix1 o) := rfl

end Cert.Spec

end
-- ==== Proof.IdealValue.lean ====
/-
  The idealized kernel's result is the dequantized linear layer of Spec.lean. Row a·2048 + r of the flat result is row
  (a, r) of the reshaped one; row a·2048 + r of the flattened activations is x (a, r, ·); column o of the transposed
  weight at k is the integer weight q (o, k) times row o's scale; and entry o of the bias row is b (o). Changes of float
  format are the identity over the extended reals, so each operand array of the region is read off the arguments exactly.
-/
import proofs.«122555_j70385924047666_2_alg».proof.Proof.IdealRun
import proofs.«122555_j70385924047666_2_alg».proof.Proof.Spec
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- One scale per output row, broadcast along the row: at (o, k) it is the scale of row o. -/
theorem scale_apply (s : S11008x1.Idx → EReal) (o : Fin 11008) (k : Fin 4096) :
    broadcastInDim S11008x4096 ![0, 1] bcast_S11008x1_S11008x4096_0_1 s (ix2 o k) = s (ix2 o (0 : Fin 1)) :=
  broadcastInDim_apply _ bcast_S11008x1_S11008x4096_0_1 s (ix2 o k) (ix2 o (0 : Fin 1)) (fun d => match d with
    | ⟨0, _⟩ => by show o.val = if (11008 : Nat) = 1 then 0 else o.val; rw [if_neg (by decide)]
    | ⟨1, _⟩ => by show 0 = if (1 : Nat) = 1 then 0 else k.val; rw [if_pos rfl])

/-- The flattened activations at row a·2048 + r. -/
theorem act_apply (c : Dev nD) (a : Fin 4) (r : Fin 2048) (k : Fin 4096) (R : Fin 8192) (hR : R.val = a.val * 2048 + r.val) :
    V m c main_v6 (ix2 R k) = m ((c : Thread nD τ).loc main_arg0) (ix3 a r k) := by
  rw [V_act, truncf_apply]
  exact shapeCast_apply _ shapeCasts_S4x2048x4096_S8192x4096 (ix2 R k) (ix3 a r k) (by
    rw [Shape.rowMajor_val_three, Shape.rowMajor_val_two]
    show (a.val * 2048 + r.val) * 4096 + k.val = R.val * 4096 + k.val
    rw [hR])

/-- The transposed weight at (k, o). -/
theorem wt_apply (c : Dev nD) (k : Fin 4096) (o : Fin 11008) :
    V m c main_v4 (ix2 k o)
      = FloatOps.sitofp (F := Ideal) .f32 (m ((c : Thread nD τ).loc main_arg1) (ix2 o k)) * m ((c : Thread nD τ).loc main_arg2) (ix2 o (0 : Fin 1)) := by
  rw [V_wt, transpose_ix2_apply, truncf_apply, mulf_apply, sitofp_apply, scale_apply]

/-- The bias row at (0, o). -/
theorem bias_apply (c : Dev nD) (o : Fin 11008) :
    V m c main_v7 (ix2 (0 : Fin 1) o) = m ((c : Thread nD τ).loc main_arg3) (ix1 o) := by
  rw [V_bias]
  exact shapeCast_a_1a_apply _ shapeCasts_S11008_S1x11008 0 o

/-- THE KERNEL'S RESULT is the layer of the four arguments. -/
theorem result_spec (c : Dev nD) :
    shapeCast S4x2048x11008 (outArr m c) shapeCasts_S8192x11008_S4x2048x11008
      = Cert.Spec.linear (m ((c : Thread nD τ).loc main_arg0)) (m ((c : Thread nD τ).loc main_arg1))
          (m ((c : Thread nD τ).loc main_arg2)) (m ((c : Thread nD τ).loc main_arg3)) := by
  funext i
  obtain ⟨a, r, o, rfl⟩ : ∃ (a : Fin 4) (r : Fin 2048) (o : Fin 11008), i = ix3 a r o := ⟨i 0, i 1, i 2, eq_ix3 i⟩
  have hR : a.val * 2048 + r.val < 8192 := by have := a.isLt; have := r.isLt; omega
  rw [shapeCast_apply (outArr m c) shapeCasts_S8192x11008_S4x2048x11008 (ix3 a r o) (ix2 ⟨a.val * 2048 + r.val, hR⟩ o) (by
      rw [Shape.rowMajor_val_two, Shape.rowMajor_val_three]; rfl),
    Cert.Spec.linear_apply]
  unfold outArr
  rw [flatOut_apply, bias_apply]
  refine congrArg (· + _) (Finset.sum_congr rfl fun k _ => ?_)
  rw [act_apply m c a r k ⟨_, hR⟩ rfl, wt_apply]

/-! ## The run, read -/

/-- Every weakly fair execution of @main terminates, nothing faulting, with the result array at the layer of the four
    arguments and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v9)
          = Cert.Spec.linear (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v9 (Pipeline.mem_restRefs_of main_v9 (by decide) (by decide))).trans ((result_eq m c).trans (result_spec m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference, read at an index: the host contraction of the activations with the scaled integer weights over the 4096
  shared positions, plus the bias broadcast over the leading axes, is the dequantized linear layer of Spec.lean, term by term.
-/
import proofs.«122555_j70385924047666_2_alg».proof.Proof.Gen.ReferenceIdeal.Read
import proofs.«122555_j70385924047666_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result, as a function of the four arguments, is the layer. -/
theorem result_eq (x0 : (⟨S4x2048x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008, .f32⟩ : BufTy).Contents (Elt Ideal)) :
    val_main_v6 (F := Ideal) x0 x1 x2 x3 = Cert.Spec.linear x0 x1 x2 x3 := by
  funext i
  obtain ⟨a, r, o, rfl⟩ : ∃ (a : Fin 4) (r : Fin 2048) (o : Fin 11008), i = ix3 a r o := ⟨i 0, i 1, i 2, eq_ix3 i⟩
  have el : ∀ k : Fin 4096, lidx_main_v3 (ix3 a r o) k = ix3 a r k := fun k =>
    funext fun d => Fin.ext (by match d with | ⟨0, _⟩ => rfl | ⟨1, _⟩ => rfl | ⟨2, _⟩ => rfl)
  have er : ∀ k : Fin 4096, ridx_main_v3 (ix3 a r o) k = ix2 o k := fun k =>
    funext fun d => Fin.ext (by match d with | ⟨0, _⟩ => rfl | ⟨1, _⟩ => rfl)
  have es : ∀ k : Fin 4096, idx_main_v1 (ix2 o k) = ix2 o (0 : Fin 1) := fun k =>
    funext fun d => Fin.ext (by match d with | ⟨0, _⟩ => rfl | ⟨1, _⟩ => rfl)
  have eb : idx_main_v4 (idx_main_v5 (ix3 a r o)) = ix1 o :=
    funext fun d => Fin.ext (by match d with | ⟨0, _⟩ => rfl)
  rw [val_main_v6_apply, val_main_v3_apply, val_main_v5_apply, val_main_v4_apply, eb, Cert.Spec.linear_apply]
  refine congrArg₂ (FloatOps.addf (F := Ideal) (φ := .f32)) (Finset.sum_congr rfl fun k _ => ?_) rfl
  rw [el, er, val_main_v2_apply, val_main_v0_apply, val_main_v1_apply, es]
  rfl

end Cert.ReferenceIdeal.RefValue

end
-- ==== Proof.lean ====
/-
  A quantized linear layer against its plain-jnp reference, over the extended reals.

  The kernel dequantizes the integer weights by one scale per output row, transposes them, flattens the activations to
  [8192, 4096] and computes out = act · wt + bias tile by tile on an 11 × 16 grid, 512 rows by 1024 columns per tile; the
  11008 columns are not a multiple of 1024, so the eleventh column tile overhangs the arrays by 256 columns and its
  transfers are cut at the arrays' end. The reference contracts the activations with the scaled weights directly and adds
  the bias. Both are
      out (a, r, o) = Σ_k x (a, r, k) · (q (o, k) · s (o, 0)) + b (o)
  with the same grouping, so they agree term by term; changes of float format are the identity here, and no finiteness
  is needed.

  The frames: the compiled kernel's and the idealized kernel's are runs of the pipeline with the edge tile's buffers
  described only on the part their transfers move; the reference's is its run with the result dropped. The idealization
  rewrote nothing, so `preserves` is trivial.
-/
import proofs.«122555_j70385924047666_2_alg».proof.Defs
import proofs.«122555_j70385924047666_2_alg».proof.Proof.Gen.Kernel
import proofs.«122555_j70385924047666_2_alg».proof.Proof.Gen.KernelIdeal
import proofs.«122555_j70385924047666_2_alg».proof.Proof.Gen.ReferenceIdeal
import proofs.«122555_j70385924047666_2_alg».proof.Proof.Gen.Pre_finite_inputs
import proofs.«122555_j70385924047666_2_alg».proof.Proof.Gen.ReferenceIdeal.Run
import proofs.«122555_j70385924047666_2_alg».proof.Proof.WordFrame
import proofs.«122555_j70385924047666_2_alg».proof.Proof.IdealValue
import proofs.«122555_j70385924047666_2_alg».proof.Proof.RefValue

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ =>
  Cert.KernelIdeal.Gen.frame_of m ρ (Cert.KernelIdeal.Hand.dats m) (Cert.KernelIdeal.Hand.A_eq m)
    (Cert.KernelIdeal.Hand.run_main m ρ)

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the layer of the (agreeing) arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
